-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x14x14 : Shape := ⟨4, ![64, 1024, 14, 14]⟩
abbrev S_ : Shape := ⟨0, ![]⟩

class Facts : Prop where
  bcast_S_S64x1024x14x14 : S_.BroadcastsInDim S64x1024x14x14 (![] : Fin 0 → Fin S64x1024x14x14.rank)
  reducesTo_S64x1024x14x14_S_d0_1_2_3 : S64x1024x14x14.ReducesTo [0, 1, 2, 3] S_
  h_S_ : 0 < S_.numel

variable [Facts]

def fn {F : FTy → Type} [FloatOps F] (main_arg0 : FVec F S64x1024x14x14 .f32) : IVec S_ 1 :=
  let main_v0 : FVec F S64x1024x14x14 .f32 := Host.absf main_arg0
  let main_cst : FVec F S_ .f32 := constant S_ .f32 0x7F800000#32
  let main_v1 : FVec F S64x1024x14x14 .f32 := broadcastInDim S64x1024x14x14 ![] bcast_S_S64x1024x14x14 main_cst
  let main_v2 : IVec S64x1024x14x14 1 := cmpf .olt main_v0 main_v1
  let main_c : IVec S_ 1 := constantI S_ 1 1#1
  let main_v3 : IVec S_ 1 := (fun x v => Host.reduce IntOp.andi x v reducesTo_S64x1024x14x14_S_d0_1_2_3 h_S_) main_v2 main_c
  main_v3
-- ==== Kernel.lean ====
abbrev S64x1024x14x14 : Shape := ⟨4, ![64, 1024, 14, 14]⟩
abbrev S14x14x64x1024 : Shape := ⟨4, ![14, 14, 64, 1024]⟩
abbrev S196x64x1024 : Shape := ⟨3, ![196, 64, 1024]⟩
abbrev S64x1024 : Shape := ⟨2, ![64, 1024]⟩
abbrev S196x8x1024 : Shape := ⟨3, ![196, 8, 1024]⟩
abbrev S8x1024 : Shape := ⟨2, ![8, 1024]⟩

abbrev nBuf : Space → Nat
  | .hbm => 4
  | .vmem => 4
  | .smem => 0
  | _ => 0

abbrev bufTy : (tb : Table) → Fin (tcTables nBuf tb) → BufTy
  | .hbm, ⟨0, _⟩ => ⟨S64x1024x14x14, .f32⟩
  | .hbm, ⟨1, _⟩ => ⟨S14x14x64x1024, .f32⟩
  | .hbm, ⟨2, _⟩ => ⟨S196x64x1024, .f32⟩
  | .hbm, ⟨3, _⟩ => ⟨S64x1024, .f32⟩
  | .local _ .vmem, ⟨0, _⟩ => ⟨S196x8x1024, .f32⟩
  | .local _ .vmem, ⟨1, _⟩ => ⟨S196x8x1024, .f32⟩
  | .local _ .vmem, ⟨2, _⟩ => ⟨S8x1024, .f32⟩
  | .local _ .vmem, ⟨3, _⟩ => ⟨S8x1024, .f32⟩
  | _, _ => ⟨S64x1024x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S196x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S64x1024x14x14_S14x14x64x1024_2_3_0_1 : S64x1024x14x14.Transposes [2, 3, 0, 1] S14x14x64x1024
  shapeCasts_S14x14x64x1024_S196x64x1024 : S14x14x64x1024.ShapeCasts S196x64x1024
  inb_S196x8x1024_S196x8x1024_0_0_0 : ∀ a, (![0, 0, 0] : Fin 3 → Nat) a + S196x8x1024.size a ≤ S196x8x1024.size a
  h_S196x8x1024 : 0 < S196x8x1024.numel
  shapeCasts_S196x8x1024_S196x8x1024 : S196x8x1024.ShapeCasts S196x8x1024
  reduces_S196x8x1024_S8x1024 : S196x8x1024.Reduces [0] S8x1024
  inb_S8x1024_S8x1024_0_0 : ∀ a, (![0, 0] : Fin 2 → Nat) a + S8x1024.size a ≤ S8x1024.size a
  h_S8x1024 : 0 < S8x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S196x8x1024.size a ≤ S196x64x1024.size a
  hwx0_0 : ∀ i : grid0.Coords, EltTy.bits .f32 = 32 ∨ (Rect.block (s := S196x64x1024) S196x8x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S64x1024.size a
  hwx0_1 : ∀ i : grid0.Coords, EltTy.bits .f32 = 32 ∨ (Rect.block (s := S64x1024) S8x1024.size (cc0_transform_1 i) (hinb0_1 i)).WholeWords (EltTy.packing .f32)

variable [Facts₀]

abbrev win0_0 : Pipeline.Window sig grid0 :=
  Pipeline.Window.ofSpec (Memref.whole main_v1) S196x8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x1024x14x14 : Shape := ⟨4, ![64, 1024, 14, 14]⟩
abbrev S65536x196 : Shape := ⟨2, ![65536, 196]⟩
abbrev S65536 : Shape := ⟨1, ![65536]⟩
abbrev S256x196 : Shape := ⟨2, ![256, 196]⟩
abbrev S256 : Shape := ⟨1, ![256]⟩
abbrev S64x1024 : Shape := ⟨2, ![64, 1024]⟩

abbrev nBuf : Space → Nat
  | .hbm => 4
  | .vmem => 5
  | .smem => 0
  | _ => 0

abbrev bufTy : (tb : Table) → Fin (tcTables nBuf tb) → BufTy
  | .hbm, ⟨0, _⟩ => ⟨S64x1024x14x14, .f32⟩
  | .hbm, ⟨1, _⟩ => ⟨S65536x196, .f32⟩
  | .hbm, ⟨2, _⟩ => ⟨S65536, .f32⟩
  | .hbm, ⟨3, _⟩ => ⟨S64x1024, .f32⟩
  | .local _ .vmem, ⟨0, _⟩ => ⟨S256x196, .f32⟩
  | .local _ .vmem, ⟨1, _⟩ => ⟨S256x196, .f32⟩
  | .local _ .vmem, ⟨2, _⟩ => ⟨S256, .f32⟩
  | .local _ .vmem, ⟨3, _⟩ => ⟨S256, .f32⟩
  | .local _ .vmem, ⟨4, _⟩ => ⟨S256, .f32⟩
  | _, _ => ⟨S64x1024x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![256, 1], ![false, false]⟩

def k0_cond2 (i : grid0.Coords) : BitVec 1 :=
  let arg1 : BitVec 32 := BitVec.ofNat 32 (i 1).val
  let c0_i32_4 : BitVec 32 := 0#32
  let v11 : BitVec 1 := Scalar.cmpi .eq arg1 c0_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S256x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S64x1024x14x14_S65536x196 : S64x1024x14x14.ShapeCasts S65536x196
  inb_S256_S256_0 : ∀ a, (![0] : Fin 1 → Nat) a + S256.size a ≤ S256.size a
  h_S256 : 0 < S256.numel
  shapeCasts_S256_S256 : S256.ShapeCasts S256
  inb_S256x196_S256x196_0_0 : ∀ a, (![0, 0] : Fin 2 → Nat) a + S256x196.size a ≤ S256x196.size a
  h_S256x196 : 0 < S256x196.numel
  shapeCasts_S256x196_S256x196 : S256x196.ShapeCasts S256x196
  reduces_S256x196_S256 : S256x196.Reduces [1] S256
  shapeCasts_S65536_S64x1024 : S65536.ShapeCasts S64x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x196.size a ≤ S65536x196.size a
  hwx0_0 : ∀ i : grid0.Coords, EltTy.bits .f32 = 32 ∨ (Rect.block (s := S65536x196) S256x196.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S65536.size a
  hwx0_1 : ∀ i : grid0.Coords, EltTy.bits .f32 = 32 ∨ (Rect.block (s := S65536) S256.size (cc0_transform_1 i) (hinb0_1 i)).WholeWords (EltTy.packing .f32)

variable [Facts₀]

abbrev win0_0 : Pipeline.Window sig grid0 :=
  Pipeline.Window.ofSpec (Memref.whole main_v0) S256x196.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== Proof.PoolSpec.lean ====
/-
  The pooled mean that both programs compute, as ONE function of the input array over the extended reals.

  For x of shape [64, 1024, 14, 14] the result at (b, c) is

      (Σ_{s < 196} x[b, c, s / 14, s % 14]) · κ,

  the sum of channel c's 14 × 14 plane in image b, times κ — the value of the one f32 word both programs multiply by
  (the float nearest to 1/196; since it is the SAME word on both sides its value never enters the argument).
  The 196 positions of a plane are counted row-major, position s being row s / 14 and column s % 14: this is the order
  in which both programs meet them. The kernel moves the two spatial axes in front and flattens THEM, so its leading
  axis of extent 196 is 14·h + w; the reference flattens the whole array to [65536, 196], whose trailing axis is again
  14·h + w. The two programs therefore add the same 196 extended reals in the same order, and differ only in which
  rows of the result one grid point produces and in a zero the reference's accumulator starts from.
-/
import Idealize.ShloMosaic.PureOps.Ideal
import Idealize.ShloMosaic.Lib.ValueIdx

noncomputable section

namespace Cert.AvgPool

open Idealize.ShloMosaic Idealize.ShloMosaic.ValueIdx

/-- The factor both programs multiply a plane's sum by: the value of their common f32 word. -/
abbrev scale : Ideal .f32 := Ideal.ofBits .f32 0x3BA72F05#32

/-- The row of the 14 × 14 plane in which the flattened position `s` lies. -/
abbrev prow (s : Fin 196) : Fin 14 := ⟨s.val / 14, by have := s.isLt; omega⟩

/-- The column of the 14 × 14 plane in which the flattened position `s` lies. -/
abbrev pcol (s : Fin 196) : Fin 14 := ⟨s.val % 14, by omega⟩

/-- The sum of the plane of channel `c` in image `b`, its positions taken row-major. -/
def planeSum (x : (⟨4, ![64, 1024, 14, 14]⟩ : Shape).Idx → Ideal .f32) (b : Fin 64) (c : Fin 1024) : Ideal .f32 :=
  ∑ s : Fin 196, x (ix4 b c (prow s) (pcol s))

/-- The pooled mean: at (b, c) the plane's sum times the common factor. -/
def mean (x : (⟨4, ![64, 1024, 14, 14]⟩ : Shape).Idx → Ideal .f32) : (⟨2, ![64, 1024]⟩ : Shape).Idx → Ideal .f32 :=
  fun j => planeSum x (j 0) (j 1) * scale

end Cert.AvgPool

end
-- ==== Proof.KernelLayout.lean ====
/-
  The array the kernel's region reads, index by index.

  Before the call the host moves the input's two spatial axes in front — [64, 1024, 14, 14] becomes [14, 14, 64, 1024] —
  and flattens them: [196, 64, 1024]. Both steps only re-arrange entries, so the entry at (s, b, c) of the array the
  region finds is the input's entry at (b, c, s / 14, s % 14): the flattening is row-major, so position s of the leading
  axis is row s / 14 and column s % 14 of the plane, and the transposition sends result axes (0, 1, 2, 3) to input axes
  (2, 3, 0, 1).
-/
import proofs.«113411_g2000101289639093_pallasbulk_264_17_alg».proof.Proof.Gen.KernelIdeal.Frame
import proofs.«113411_g2000101289639093_pallasbulk_264_17_alg».proof.Proof.PoolSpec
import Idealize.ShloMosaic.Lib.Pipeline.Value
import Idealize.ShloMosaic.Lib.ValueIdx
import Idealize.ShloMosaic.Lib.StableHlo.Run

noncomputable section

namespace Cert.KernelIdeal.Pool

open Cert.KernelIdeal Cert.KernelIdeal.Gen Idealize.ShloMosaic Idealize.ShloMosaic.TcCoe Idealize.SL.Sem
open Idealize.ShloMosaic.ValueIdx Cert.AvgPool

variable (m : (ℓ : Loc nD τ sig) → Buf (Elt Ideal) ℓ)

/-- The input with its spatial axes moved in front and flattened into one axis of extent 196. -/
abbrev relaid (x : S64x1024x14x14.Idx → Ideal .f32) : S196x64x1024.Idx → Ideal .f32 :=
  shapeCast S196x64x1024
    (transpose S14x14x64x1024 [2, 3, 0, 1] x transposes_S64x1024x14x14_S14x14x64x1024_2_3_0_1)
    shapeCasts_S14x14x64x1024_S196x64x1024

/-- When the region is entered its input array holds the re-arranged argument: the two host lines before the call. -/
theorem entry_eq (c : Dev nD) :
    (V m c main_v1 : S196x64x1024.Idx → Ideal .f32) = relaid (m ((c : Thread nD τ).loc main_arg0)) := by
  dsimp only [Gen.V, Gen.hostOps0]; after_results; rfl

/-- Entry (s, b, c) of the re-arranged array is the input at image b, channel c, row s / 14, column s % 14. -/
theorem relaid_apply (x : S64x1024x14x14.Idx → Ideal .f32) (s : Fin 196) (b : Fin 64) (c : Fin 1024) :
    relaid x (ix3 s b c) = x (ix4 b c (prow s) (pcol s)) := by
  refine (shapeCast_apply _ shapeCasts_S14x14x64x1024_S196x64x1024 (ix3 s b c) (ix4 (prow s) (pcol s) b c) ?_).trans ?_
  · rw [Shape.rowMajor_val_four, Shape.rowMajor_val_three]
    show ((s.val / 14 * 14 + s.val % 14) * 64 + b.val) * 1024 + c.val = (s.val * 64 + b.val) * 1024 + c.val
    omega
  · exact transpose_apply [2, 3, 0, 1] x transposes_S64x1024x14x14_S14x14x64x1024_2_3_0_1
      (ix4 (prow s) (pcol s) b c) (ix4 b c (prow s) (pcol s))
      (fun a => match a with | ⟨0, _⟩ => rfl | ⟨1, _⟩ => rfl | ⟨2, _⟩ => rfl | ⟨3, _⟩ => rfl)

end Cert.KernelIdeal.Pool

end
-- ==== Proof.KernelPayload.lean ====
/-
  What the kernel's body computes from one loaded block, index by index.

  At a grid point the body loads a block of shape [196, 8, 1024] — all 196 spatial positions of 8 images, every
  channel —, adds it up along the leading axis and multiplies by the common factor. Over the extended reals the
  reduction from the zero word is the plain sum over the 196 coordinates of that axis, so the body's result at
  (p, q) is (Σ_{s < 196} block[s, p, q]) · κ.
-/
import proofs.«113411_g2000101289639093_pallasbulk_264_17_alg».proof.Proof.Gen.KernelIdeal.Skeleton
import proofs.«113411_g2000101289639093_pallasbulk_264_17_alg».proof.Proof.PoolSpec
import Idealize.ShloMosaic.Lib.Pipeline.Value
import Idealize.ShloMosaic.Lib.ValueIdx
import Idealize.ShloMosaic.PureOps.Ideal.Laws

noncomputable section

namespace Cert.KernelIdeal.Pool

open Cert.KernelIdeal Cert.KernelIdeal.Gen Idealize.ShloMosaic Idealize.ShloMosaic.TcCoe Idealize.SL.Sem
open Idealize.ShloMosaic.ValueIdx Cert.AvgPool

/-- Putting coordinate `s` back on the summed leading axis of the result index (p, q) gives the block index (s, p, q). -/
theorem lift_eq (p : Fin 8) (q : Fin 1024) (s : Fin 196) :
    reduces_S196x8x1024_S8x1024.lift (ix2 p q) s = ix3 s p q := by
  funext a
  apply Fin.ext
  match a with
  | ⟨0, _⟩ => rfl
  | ⟨1, _⟩ => rfl
  | ⟨2, _⟩ => rfl

/-- The body's result at (p, q): the block summed over its 196 leading coordinates, times the common factor. -/
theorem payload_apply (x0 : FVec Ideal S196x8x1024 .f32) (p : Fin 8) (q : Fin 1024) :
    k0_pay1 x0 (ix2 p q) = (∑ s : Fin 196, x0 (ix3 s p q)) * scale := by
  unfold k0_pay1
  show multiReduction .add [0] S8x1024 (shapeCast S196x8x1024 x0 shapeCasts_S196x8x1024_S196x8x1024) 0x00000000#32
      reduces_S196x8x1024_S8x1024 (.inl rfl) rfl (ix2 p q) * scale = _
  refine congrArg (· * scale) ?_
  refine (Ideal.multiReduction_add_single (shapeCast S196x8x1024 x0 shapeCasts_S196x8x1024_S196x8x1024) 0x00000000#32
      reduces_S196x8x1024_S8x1024 (.inl rfl) rfl (ix2 p q)).trans ?_
  refine Finset.sum_congr rfl fun s _ => ?_
  rw [shapeCast_self]
  exact congrArg x0 (lift_eq p q s)

end Cert.KernelIdeal.Pool

end
-- ==== Proof.KernelPool.lean ====
/-
  The kernel's result array after the run: the pooled mean of the argument.

  The grid has 8 points. Point t loads rows 8t … 8t + 7 of the middle axis of the re-arranged [196, 64, 1024] array — all
  196 spatial positions and all 1024 channels of images 8t … 8t + 7 — and writes rows 8t … 8t + 7 of the [64, 1024]
  result. What it writes at (p, q) is the sum over s of the loaded block at (s, p, q) times the common factor, and the
  loaded block at (s, p, q) is the input at image 8t + p, channel q, plane position s: so point t writes exactly rows
  8t … 8t + 7 of the pooled mean. Row b of the result belongs to point b / 8, so the eight blocks fill the array, which
  therefore ends holding the pooled mean everywhere.
-/
import proofs.«113411_g2000101289639093_pallasbulk_264_17_alg».proof.Proof.Gen.KernelIdeal.Value
import proofs.«113411_g2000101289639093_pallasbulk_264_17_alg».proof.Proof.KernelLayout
import proofs.«113411_g2000101289639093_pallasbulk_264_17_alg».proof.Proof.KernelPayload

noncomputable section

namespace Cert.KernelIdeal.Pool

open Cert.KernelIdeal Cert.KernelIdeal.Gen Idealize.ShloMosaic Idealize.ShloMosaic.TcCoe Idealize.SL.Sem
open Idealize.ShloMosaic.Pipeline (Dat)
open Idealize.ShloMosaic.ValueIdx Cert.AvgPool

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The two index maps over the grid: the input block sits at block row (0, n, 0) and the output block at (n, 0) for the
    same n, which is at most 7. -/
theorem idx_facts : ∀ t : Fin cfg0.N, win0_0.index t (0 : Fin 3) = 0
    ∧ win0_0.index t (1 : Fin 3) = win0_1.index t (0 : Fin 2)
    ∧ win0_0.index t (2 : Fin 3) = 0
    ∧ win0_1.index t (1 : Fin 2) = 0
    ∧ win0_1.index t (0 : Fin 2) ≤ 7 :=
  (by decide +kernel : ∀ t : Fin grid0.N, _)

/-- Every one of the 8 block rows of the result is some point's. -/
theorem idx_onto : ∀ q : Fin 8, ∃ t : Fin cfg0.N, win0_1.index t = ![q.val, 0] :=
  (by decide +kernel : ∀ q : Fin 8, ∃ t : Fin grid0.N, win0_1.index t = ![q.val, 0])

/-- One point's result from the input array: if the loaded block `x0` is rows 8n … 8n + 7 (middle axis) of the
    re-arranged input, the body's result at (p, q) is the pooled mean at (8n + p, q). -/
theorem point_eq (x : S64x1024x14x14.Idx → Ideal .f32) (x0 : FVec Ideal S196x8x1024 .f32) (n : Nat) (hn : n ≤ 7)
    (hx : ∀ (s : Fin 196) (p : Fin 8) (q : Fin 1024), x0 (ix3 s p q) = relaid x (ix3 s ⟨n * 8 + p.val, by omega⟩ q))
    (p : Fin 8) (q : Fin 1024) :
    k0_pay1 x0 (ix2 p q) = mean x (ix2 (⟨n * 8 + p.val, by omega⟩ : Fin 64) q) := by
  rw [payload_apply]
  show _ = planeSum x ⟨n * 8 + p.val, _⟩ q * scale
  refine congrArg (· * scale) ?_
  unfold planeSum
  refine Finset.sum_congr rfl fun s _ => ?_
  rw [hx s p q, relaid_apply]

/-- WHAT POINT `t` WRITES BACK is its block of the pooled mean of the argument. -/
theorem flushed_eq (c : Dev nD) (t : Fin cfg0.N) :
    (dats m 0 c).flushed 1 t
      = ((cfg0.win 1).blk t).view.read (Elt Ideal) (mean (m ((c : Thread nD τ).loc main_arg0))) := by
  rw [Value.flushed1]
  unfold out0_1
  rw [View.canon_unit_zero hz2]
  simp only [View.ld_unit_zero (S := S196x8x1024) hz3]
  obtain ⟨e0, e1, e2, e3, e4⟩ := idx_facts t
  funext y
  show k0_pay1 (iblk m c 0 t) y = mean (m ((c : Thread nD τ).loc main_arg0)) (((cfg0.win 1).blk t).view.emb y)
  have hy0 : (y 0).val < 8 := (y 0).isLt
  have hy1 : (y 1).val < 1024 := (y 1).isLt
  have hl : y = ix2 (⟨(y 0).val, hy0⟩ : Fin 8) (⟨(y 1).val, hy1⟩ : Fin 1024) := by
    funext a; match a with | ⟨0, _⟩ => rfl | ⟨1, _⟩ => rfl
  have hr : ((cfg0.win 1).blk t).view.emb y
      = ix2 (⟨win0_1.index t (0 : Fin 2) * 8 + (y 0).val, by omega⟩ : Fin 64) (⟨(y 1).val, hy1⟩ : Fin 1024) := by
    funext a; apply Fin.ext
    match a with
    | ⟨0, _⟩ => show win0_1.index t (0 : Fin 2) * 8 + 1 * (y 0).val = win0_1.index t (0 : Fin 2) * 8 + (y 0).val; omega
    | ⟨1, _⟩ => show win0_1.index t (1 : Fin 2) * 1024 + 1 * (y 1).val = (y 1).val; omega
  rw [hr]
  refine (congrArg (k0_pay1 (iblk m c 0 t)) hl).trans ?_
  refine point_eq (m ((c : Thread nD τ).loc main_arg0)) (iblk m c 0 t) (win0_1.index t (0 : Fin 2)) e4 ?_ _ _
  intro s p q
  have hp : p.val < 8 := p.isLt
  rw [← entry_eq m c]
  show V m c main_v1 (((cfg0.win 0).blk t).view.emb (ix3 s p q)) = V m c main_v1 _
  refine congrArg (V m c main_v1) ?_
  funext a; apply Fin.ext
  match a with
  | ⟨0, _⟩ => show win0_0.index t (0 : Fin 3) * 196 + 1 * s.val = s.val; omega
  | ⟨1, _⟩ => show win0_0.index t (1 : Fin 3) * 8 + 1 * p.val = win0_1.index t (0 : Fin 2) * 8 + p.val; omega
  | ⟨2, _⟩ => show win0_0.index t (2 : Fin 3) * 1024 + 1 * q.val = q.val; omega

/-- An index of the result is in point `t`'s block iff each coordinate is in the block's range on its axis. -/
theorem mem_blk (t : Fin cfg0.N) (i : S64x1024.Idx) :
    i ∈ ((cfg0.win 1).blk t).view.set ↔ ∀ a : Fin 2, win0_1.index t a * S8x1024.size a ≤ (i a).val
      ∧ (i a).val < win0_1.index t a * S8x1024.size a + S8x1024.size a := by
  show i ∈ ((View.whole main_v2).slice (win0_1.rect t)).set ↔ _
  rw [View.set_slice_whole, Rect.mem_set_unit]
  exact Iff.rfl

/-- Every index of the result is in some point's block: row b in the block of point b / 8. -/
theorem cover (i : S64x1024.Idx) :
    ∃ t : Fin cfg0.N, (cfg0.win 1).flush t = true ∧ i ∈ ((cfg0.win 1).blk t).view.set := by
  have hi0 : (i 0).val < 64 := (i 0).isLt
  have hi1 : (i 1).val < 1024 := (i 1).isLt
  obtain ⟨t, ht⟩ := idx_onto ⟨(i 0).val / 8, by omega⟩
  have q0 : win0_1.index t (0 : Fin 2) = (i 0).val / 8 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 1024 ≤ (i 1).val ∧ (i 1).val < win0_1.index t (1 : Fin 2) * 1024 + 1024; omega

/-- THE RESULT ARRAY after the run is the pooled mean of the argument. -/
theorem final (c : Dev nD) : (dats m 0 c).arrAt 1 cfg0.N = mean (m ((c : Thread nD τ).loc main_arg0)) :=
  (dats m 0 c).arrAt_eq_of_cover 1 (mean (m ((c : Thread nD τ).loc main_arg0))) (fun t _ => flushed_eq m c t) cover

/-- The run, read: the result at the pooled mean of the argument, the argument unchanged. -/
theorem run : θ_run defs (onTc (τ := τ) (main (F := Ideal))) ⟨m, fun _ => 0, ρ⟩ fun r => ∀ c : Dev nD,
      r.2.mem ((c : Thread nD τ).loc main_v2) = mean (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Pool

end
-- ==== Proof.RefPiece.lean ====
/-
  What the reference's body leaves in its output block, as a value of the block it loaded.

  At every grid point both of the body's conditions hold (the second grid axis has one point, so each point is both
  the first and the last step of its row block's reduction). The body therefore does four things in order: it fills
  the accumulator with zeros; it loads its [256, 196] input block and the accumulator and stores back accumulator +
  row sums; it loads the accumulator once more and stores accumulator · κ into the output block. Each store covers its
  whole buffer and each load reads a whole buffer, so what a load finds is exactly what the last store before it
  put there. The output block ends holding the third stored value of the second of the first — nothing else of the
  buffers' earlier contents survives.
-/
import proofs.«113411_g2000101289639093_pallasbulk_264_17_alg».proof.Proof.Gen.ReferenceIdeal.Frame
import Idealize.ShloMosaic.Lib.Pipeline.Value
import Idealize.ShloMosaic.Lib.Tactic

noncomputable section

namespace Cert.ReferenceIdeal.Pool

open Cert.ReferenceIdeal Cert.ReferenceIdeal.Gen Idealize.ShloMosaic Idealize.ShloMosaic.TcCoe Idealize.SL.Sem
open Idealize.ShloMosaic.Tactic

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl

/-- The output block after the body, from the loaded input block `x0`: the scaled value of the accumulated value of
    `x0` and the zero fill. The accumulator's two read-backs each see the store just before them. -/
theorem piece_eq (c : Dev nD) (i : grid0.Coords) (a2 : Memref sig .tc .vmem S256x196 .f32) (h2 : a2.IsWhole)
    (a3 : Memref sig .tc .vmem S256 .f32) (h3 : a3.IsWhole) (a4 : Memref sig .tc .vmem S256 .f32) (h4 : a4.IsWhole)
    (hc0 : cond0_0 i) (hc1 : cond0_1 i) (x0 : Vec F S256x196 .f32) :
    out0_A_1 c i a2 h2 a3 h3 a4 h4 hc0 hc1 x0 = k0_pay3 (k0_pay2 x0 k0_pay1) := by
  unfold out0_A_1
  rw [View.read_writes_eq_canon _ _ _ (cover0_A_1 c i a2 h2 a3 h3 a4 h4 hc0 hc1 x0)]
  unfold kernelRun0_A
  dsimp only
  sl_unfold_words
  rw [View.canon_unit_zero (S := S256) hz1]
  rw [View.readCov_eq_canon_ld _ _ _ (fun y => ⟨_, List.mem_cons.mpr (Or.inl rfl), View.mem_set_unit_zero hz1 inb_S256_S256_0 y⟩)]
  rw [View.canon_cons_unit_zero (S := S256) hz1, View.ld_unit_zero (S := S256) hz1]
  rw [View.readCov_unit_zero (S := S256) _ hz1]
  simp only [View.readAt_eq_ld, h2.read_unread, View.ld_unit_zero (S := S256x196) hz2]

end Cert.ReferenceIdeal.Pool

end
-- ==== Proof.RefPayload.lean ====
/-
  What the reference's body computes from one loaded block, index by index.

  The three values the body stores, composed: the zero fill z; the accumulated value z + (row sums of the [256, 196]
  block); that value times the common factor κ. Over the extended reals the row reduction from the zero word is the
  plain sum over the 196 columns, the zero word is 0, and 0 + y = y for every extended real y (also for ±∞). So at row
  r the body's result is (Σ_{k < 196} block[r, k]) · κ.
-/
import proofs.«113411_g2000101289639093_pallasbulk_264_17_alg».proof.Proof.Gen.ReferenceIdeal.Skeleton
import proofs.«113411_g2000101289639093_pallasbulk_264_17_alg».proof.Proof.PoolSpec
import Idealize.ShloMosaic.Lib.Pipeline.Value
import Idealize.ShloMosaic.Lib.ValueIdx
import Idealize.ShloMosaic.PureOps.Ideal.Laws

noncomputable section

namespace Cert.ReferenceIdeal.Pool

open Cert.ReferenceIdeal Cert.ReferenceIdeal.Gen Idealize.ShloMosaic Idealize.ShloMosaic.TcCoe Idealize.SL.Sem
open Idealize.ShloMosaic.ValueIdx Cert.AvgPool

/-- Putting coordinate `k` back on the summed trailing axis of the result index (r) gives the block index (r, k). -/
theorem lift_eq (r : Fin 256) (k : Fin 196) : reduces_S256x196_S256.lift (ix1 r) k = ix2 r k := by
  funext a
  apply Fin.ext
  match a with
  | ⟨0, _⟩ => rfl
  | ⟨1, _⟩ => rfl

/-- The body's result at row r: the block's row r summed over its 196 columns, times the common factor; the zero the
    accumulator starts from adds nothing. -/
theorem payload_apply (x0 : FVec Ideal S256x196 .f32) (r : Fin 256) :
    k0_pay3 (k0_pay2 x0 k0_pay1) (ix1 r) = (∑ k : Fin 196, x0 (ix2 r k)) * scale := by
  unfold k0_pay3 k0_pay2 k0_pay1
  simp only [shapeCast_self]
  show (Ideal.ofBits .f32 0x00000000#32
      + multiReduction .add [1] S256 x0 0x00000000#32 reduces_S256x196_S256 (.inl rfl) rfl (ix1 r)) * scale = _
  rw [Ideal.ofBits_zero_f32, zero_add]
  refine congrArg (· * scale) ?_
  refine (Ideal.multiReduction_add_single x0 0x00000000#32 reduces_S256x196_S256 (.inl rfl) rfl (ix1 r)).trans ?_
  exact Finset.sum_congr rfl fun k _ => congrArg x0 (lift_eq r k)

end Cert.ReferenceIdeal.Pool

end
-- ==== Proof.RefPool.lean ====
/-
  The reference's flat result array after its region: the pooled mean, one row of the flattened input per entry.

  The host first flattens the input [64, 1024, 14, 14] to [65536, 196]: row R = 1024·b + c is channel c of image b, and
  column k = 14·h + w is position (h, w) of its plane. The grid has 256 points (its second axis has one point). Point t
  loads rows 256t … 256t + 255 and writes entries 256t … 256t + 255 of the flat result [65536]; what it writes at r is
  (Σ_k block[r, k]) · κ, and block[r, k] is the input at image (256t + r) / 1024, channel (256t + r) % 1024, position k.
  So point t writes its 256 entries of the function "entry R is the pooled mean at (R / 1024, R % 1024)". Entry R
  belongs to point R / 256, so the 256 blocks fill the flat array.
-/
import proofs.«113411_g2000101289639093_pallasbulk_264_17_alg».proof.Proof.RefPiece
import proofs.«113411_g2000101289639093_pallasbulk_264_17_alg».proof.Proof.RefPayload
import Idealize.ShloMosaic.Lib.StableHlo.Run

noncomputable section

namespace Cert.ReferenceIdeal.Pool

open Cert.ReferenceIdeal Cert.ReferenceIdeal.Gen Idealize.ShloMosaic Idealize.ShloMosaic.TcCoe Idealize.SL.Sem
open Idealize.ShloMosaic.Pipeline (Dat)
open Idealize.ShloMosaic.ValueIdx Cert.AvgPool

variable (m : (ℓ : Loc nD τ sig) → Buf (Elt Ideal) ℓ) (ρ : Dev nD → PrngReg)

/-- The input flattened to one row per (image, channel) and one column per plane position. -/
abbrev flatIn (x : S64x1024x14x14.Idx → Ideal .f32) : S65536x196.Idx → Ideal .f32 :=
  shapeCast S65536x196 x shapeCasts_S64x1024x14x14_S65536x196

/-- When the region is entered its input array holds the flattened argument: the host line before the call. -/
theorem entry_eq (c : Dev nD) :
    (V m c main_v0 : S65536x196.Idx → Ideal .f32) = flatIn (m ((c : Thread nD τ).loc main_arg0)) := by
  show StableHlo.after hostOps0 (fun b => m (c, b)) (Proc.devRef .tc main_v0) = _
  after_results; rfl

/-- Entry (R, k) of the flattened input is the input at image R / 1024, channel R % 1024, row k / 14, column k % 14. -/
theorem flatIn_apply (x : S64x1024x14x14.Idx → Ideal .f32) (R : Fin 65536) (k : Fin 196) :
    flatIn x (ix2 R k)
      = x (ix4 (⟨R.val / 1024, by have := R.isLt; omega⟩ : Fin 64) (⟨R.val % 1024, by omega⟩ : Fin 1024) (prow k) (pcol k)) := by
  refine shapeCast_apply x shapeCasts_S64x1024x14x14_S65536x196 (ix2 R k) _ ?_
  rw [Shape.rowMajor_val_four, Shape.rowMajor_val_two]
  show ((R.val / 1024 * 1024 + R.val % 1024) * 14 + k.val / 14) * 14 + k.val % 14 = R.val * 196 + k.val
  omega

/-- The flat result: entry R is the pooled mean at image R / 1024, channel R % 1024. -/
def flatMean (x : S64x1024x14x14.Idx → Ideal .f32) : S65536.Idx → Ideal .f32 :=
  fun i => planeSum x (⟨(i 0).val / 1024, by have : (i 0).val < 65536 := (i 0).isLt; omega⟩ : Fin 64)
    (⟨(i 0).val % 1024, by omega⟩ : Fin 1024) * scale

/-- The two index maps over the grid: the input block sits at block row (n, 0) and the output block at (n) for the same
    n, which is at most 255. -/
theorem idx_facts : ∀ t : Fin cfg0.N, win0_0.index t (0 : Fin 2) = win0_1.index t (0 : Fin 1)
    ∧ win0_0.index t (1 : Fin 2) = 0
    ∧ win0_1.index t (0 : Fin 1) ≤ 255 :=
  (by decide +kernel : ∀ t : Fin grid0.N, _)

/-- Every one of the 256 blocks of the flat result is some point's. -/
theorem idx_onto : ∀ q : Fin 256, ∃ t : Fin cfg0.N, win0_1.index t = ![q.val] :=
  (by decide +kernel : ∀ q : Fin 256, ∃ t : Fin grid0.N, win0_1.index t = ![q.val])

/-- One point's result from the input array: if the loaded block `x0` is rows 256n … 256n + 255 of the flattened
    input, the body's result at r is the flat result at 256n + r. -/
theorem point_eq (x : S64x1024x14x14.Idx → Ideal .f32) (x0 : FVec Ideal S256x196 .f32) (n : Nat) (hn : n ≤ 255)
    (hx : ∀ (r : Fin 256) (k : Fin 196), x0 (ix2 r k) = flatIn x (ix2 (⟨n * 256 + r.val, by omega⟩ : Fin 65536) k))
    (r : Fin 256) :
    k0_pay3 (k0_pay2 x0 k0_pay1) (ix1 r) = flatMean x (ix1 (⟨n * 256 + r.val, by omega⟩ : Fin 65536)) := by
  rw [payload_apply]
  show _ = planeSum x ⟨(n * 256 + r.val) / 1024, _⟩ ⟨(n * 256 + r.val) % 1024, _⟩ * scale
  refine congrArg (· * scale) ?_
  unfold planeSum
  refine Finset.sum_congr rfl fun k _ => ?_
  rw [hx r k, flatIn_apply]

/-- WHAT POINT `t` WRITES BACK is its block of the flat result of the argument. -/
theorem flushed_eq (c : Dev nD) (t : Fin cfg0.N) :
    (dats m 0 c).flushed 1 t
      = ((cfg0.win 1).blk t).view.read (Elt Ideal) (flatMean (m ((c : Thread nD τ).loc main_arg0))) := by
  show (cfg0.win 1).cut (grid0.coords t) ((dats m 0 c).after 1 t) = _
  rw [after0_1]
  unfold outsAt0
  rw [piece_eq c (grid0.coords t) (ms0_0 t) (hs0_0 t) (ms0_1 t) (hs0_1 t) scM0_0 (Memref.isWhole_whole _)
    (hcond0_0 t) (hcond0_1 t) (iblk m c 0 t)]
  obtain ⟨e0, e1, e2⟩ := idx_facts t
  funext y
  show k0_pay3 (k0_pay2 (iblk m c 0 t) (k0_pay1 (F := Ideal))) y
    = flatMean (m ((c : Thread nD τ).loc main_arg0)) (((cfg0.win 1).blk t).view.emb y)
  have hy0 : (y 0).val < 256 := (y 0).isLt
  have hl : y = ix1 (⟨(y 0).val, hy0⟩ : Fin 256) := by
    funext a; match a with | ⟨0, _⟩ => rfl
  have hr : ((cfg0.win 1).blk t).view.emb y
      = ix1 (⟨win0_1.index t (0 : Fin 1) * 256 + (y 0).val, by omega⟩ : Fin 65536) := by
    funext a; apply Fin.ext
    match a with
    | ⟨0, _⟩ => show win0_1.index t (0 : Fin 1) * 256 + 1 * (y 0).val = win0_1.index t (0 : Fin 1) * 256 + (y 0).val; omega
  rw [hr]
  refine (congrArg (k0_pay3 (k0_pay2 (iblk m c 0 t) (k0_pay1 (F := Ideal)))) hl).trans ?_
  refine point_eq (m ((c : Thread nD τ).loc main_arg0)) (iblk m c 0 t) (win0_1.index t (0 : Fin 1)) e2 ?_ _
  intro r k
  have hr' : r.val < 256 := r.isLt
  rw [← entry_eq m c]
  show V m c main_v0 (((cfg0.win 0).blk t).view.emb (ix2 r k)) = V m c main_v0 _
  refine congrArg (V m c main_v0) ?_
  funext a; apply Fin.ext
  match a with
  | ⟨0, _⟩ => show win0_0.index t (0 : Fin 2) * 256 + 1 * r.val = win0_1.index t (0 : Fin 1) * 256 + r.val; omega
  | ⟨1, _⟩ => show win0_0.index t (1 : Fin 2) * 196 + 1 * k.val = k.val; omega

/-- An index of the flat result is in point `t`'s block iff its coordinate is in the block's range. -/
theorem mem_blk (t : Fin cfg0.N) (i : S65536.Idx) :
    i ∈ ((cfg0.win 1).blk t).view.set ↔ ∀ a : Fin 1, win0_1.index t a * S256.size a ≤ (i a).val
      ∧ (i a).val < win0_1.index t a * S256.size a + S256.size a := by
  show i ∈ ((View.whole main_v1).slice (win0_1.rect t)).set ↔ _
  rw [View.set_slice_whole, Rect.mem_set_unit]
  exact Iff.rfl

/-- Every index of the flat result is in some point's block: entry R in the block of point R / 256. -/
theorem cover (i : S65536.Idx) :
    ∃ t : Fin cfg0.N, (cfg0.win 1).flush t = true ∧ i ∈ ((cfg0.win 1).blk t).view.set := by
  have hi0 : (i 0).val < 65536 := (i 0).isLt
  obtain ⟨t, ht⟩ := idx_onto ⟨(i 0).val / 256, by omega⟩
  have q0 : win0_1.index t (0 : Fin 1) = (i 0).val / 256 := congrFun ht 0
  refine ⟨t, flush0_1 t, ?_⟩
  rw [mem_blk]
  intro a
  match a with
  | ⟨0, _⟩ => show win0_1.index t (0 : Fin 1) * 256 ≤ (i 0).val ∧ (i 0).val < win0_1.index t (0 : Fin 1) * 256 + 256; omega

/-- THE FLAT RESULT ARRAY after the region is the flat pooled mean of the argument. -/
theorem final (c : Dev nD) : (dats m 0 c).arrAt 1 cfg0.N = flatMean (m ((c : Thread nD τ).loc main_arg0)) :=
  (dats m 0 c).arrAt_eq_of_cover 1 (flatMean (m ((c : Thread nD τ).loc main_arg0))) (fun t _ => flushed_eq m c t) cover

end Cert.ReferenceIdeal.Pool

end
-- ==== Proof.RefRun.lean ====
/-
  The reference's run, read: its result is the pooled mean of the argument.

  After the region the host reshapes the flat result [65536] to [64, 1024], row-major: entry 1024·b + c becomes (b, c).
  The flat result's entry R is the pooled mean at (R / 1024, R % 1024), and (1024·b + c) / 1024 = b, (1024·b + c) % 1024
  = c for c < 1024: the reshaped array is the pooled mean. The frame's run gives the flat array after the region and
  states what the host line after it computes from that array; nothing after the region writes the argument.
-/
import proofs.«113411_g2000101289639093_pallasbulk_264_17_alg».proof.Proof.RefPool

noncomputable section

namespace Cert.ReferenceIdeal.Pool

open Cert.ReferenceIdeal Cert.ReferenceIdeal.Gen Idealize.ShloMosaic Idealize.ShloMosaic.TcCoe Idealize.SL.Sem
open Idealize.ShloMosaic.Pipeline (Dat)
open Idealize.ShloMosaic.ValueIdx Cert.AvgPool

variable (m : (ℓ : Loc nD τ sig) → Buf (Elt Ideal) ℓ) (ρ : Dev nD → PrngReg)

/-- The flat result reshaped to [64, 1024] is the pooled mean: entry 1024·b + c lands at (b, c). -/
theorem unflatten_eq (x : S64x1024x14x14.Idx → Ideal .f32) :
    shapeCast S64x1024 (flatMean x) shapeCasts_S65536_S64x1024 = mean x := by
  funext j
  obtain ⟨b, c, rfl⟩ : ∃ (b : Fin 64) (c : Fin 1024), j = ix2 b c := ⟨j 0, j 1, eq_ix2 j⟩
  have hb : b.val < 64 := b.isLt
  have hc : c.val < 1024 := c.isLt
  refine (shapeCast_apply (flatMean x) shapeCasts_S65536_S64x1024 (ix2 b c)
    (ix1 (⟨b.val * 1024 + c.val, by omega⟩ : Fin 65536)) ?_).trans ?_
  · rw [Shape.rowMajor_val_one, Shape.rowMajor_val_two]
    rfl
  · have e0 : (⟨(b.val * 1024 + c.val) / 1024, by omega⟩ : Fin 64) = b :=
      Fin.ext (by show (b.val * 1024 + c.val) / 1024 = b.val; omega)
    have e1 : (⟨(b.val * 1024 + c.val) % 1024, by omega⟩ : Fin 1024) = c :=
      Fin.ext (by show (b.val * 1024 + c.val) % 1024 = c.val; omega)
    show planeSum x ⟨(b.val * 1024 + c.val) / 1024, _⟩ ⟨(b.val * 1024 + c.val) % 1024, _⟩ * scale
      = planeSum x b c * scale
    rw [e0, e1]

/-- What the host line after the region leaves in the result: the flat array after the region, reshaped — the pooled
    mean of the argument. -/
theorem tail_eq (c : Dev nD) :
    Pipeline.afterTail₀ cfgs (dats m) 0 (V0 m) [hostOps1] c main_v2 = mean (m ((c : Thread nD τ).loc main_arg0)) := by
  unfold Pipeline.afterTail₀
  show StableHlo.after hostOps1 _ (Proc.devRef .tc main_v2) = _
  after_results
  refine (congrArg (fun A : S65536.Idx → Ideal .f32 => shapeCast S64x1024 A shapeCasts_S65536_S64x1024)
    ((Pipeline.withArrays_arr spec0 launch0.win.arr_inj c _ _ 1).trans (final m c))).trans (unflatten_eq _)

/-- The run, read: the result at the pooled mean of the argument, the argument unchanged. -/
theorem run : θ_run defs (onTc (τ := τ) (main (F := Ideal))) ⟨m, fun _ => 0, ρ⟩ fun r => ∀ c : Dev nD,
      r.2.mem ((c : Thread nD τ).loc main_v2) = mean (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c)⟩)
    (run_main m ρ)

end Cert.ReferenceIdeal.Pool

end
-- ==== Proof.lean ====
/-
  Global average pooling: the kernel and its reference compute the same array over the extended reals.

  Both programs take x of shape [64, 1024, 14, 14] and return, at (b, c), the sum of the 196 entries of channel c's
  14 × 14 plane in image b, times one f32 constant κ (the float nearest to 1/196 — the same word in both programs).

  The kernel moves the spatial axes in front and flattens them (a re-arrangement: [196, 64, 1024], position s = 14·h + w),
  then in each of 8 grid points adds up a [196, 8, 1024] block along its leading axis and multiplies by κ: rows
  8t … 8t + 7 of the result. The reference flattens x to [65536, 196] (row 1024·b + c, column 14·h + w), in each of 256 grid
  points fills an accumulator with zeros, adds to it the row sums of a [256, 196] block, multiplies by κ, and afterwards
  reshapes the flat result [65536] to [64, 1024]. Over the extended reals a sum from the zero word is the plain sum,
  0 + y = y for every y including ±∞, and both programs meet a plane's 196 entries in the same row-major order, so both
  results are the function Cert.AvgPool.mean of the argument, entry by entry (Proof/KernelPool.lean: the kernel's run;
  Proof/RefRun.lean: the reference's). No law is used that fails at infinities, so the precondition is not needed for the
  values. The kernel's idealization rewrites nothing, and each program's run leaves its argument as it was.
-/
import proofs.«113411_g2000101289639093_pallasbulk_264_17_alg».proof.Defs
import proofs.«113411_g2000101289639093_pallasbulk_264_17_alg».proof.Proof.Gen.Kernel
import proofs.«113411_g2000101289639093_pallasbulk_264_17_alg».proof.Proof.Gen.Kernel.Skeleton
import proofs.«113411_g2000101289639093_pallasbulk_264_17_alg».proof.Proof.Gen.Kernel.Launch
import proofs.«113411_g2000101289639093_pallasbulk_264_17_alg».proof.Proof.Gen.Kernel.Points
import proofs.«113411_g2000101289639093_pallasbulk_264_17_alg».proof.Proof.Gen.Kernel.Frame
import proofs.«113411_g2000101289639093_pallasbulk_264_17_alg».proof.Proof.Gen.KernelIdeal
import proofs.«113411_g2000101289639093_pallasbulk_264_17_alg».proof.Proof.Gen.KernelIdeal.Skeleton
import proofs.«113411_g2000101289639093_pallasbulk_264_17_alg».proof.Proof.Gen.KernelIdeal.Launch
import proofs.«113411_g2000101289639093_pallasbulk_264_17_alg».proof.Proof.Gen.KernelIdeal.Points
import proofs.«113411_g2000101289639093_pallasbulk_264_17_alg».proof.Proof.Gen.KernelIdeal.Frame
import proofs.«113411_g2000101289639093_pallasbulk_264_17_alg».proof.Proof.Gen.KernelIdeal.Value
import proofs.«113411_g2000101289639093_pallasbulk_264_17_alg».proof.Proof.Gen.ReferenceIdeal
import proofs.«113411_g2000101289639093_pallasbulk_264_17_alg».proof.Proof.Gen.ReferenceIdeal.Skeleton
import proofs.«113411_g2000101289639093_pallasbulk_264_17_alg».proof.Proof.Gen.ReferenceIdeal.Launch
import proofs.«113411_g2000101289639093_pallasbulk_264_17_alg».proof.Proof.Gen.ReferenceIdeal.Points
import proofs.«113411_g2000101289639093_pallasbulk_264_17_alg».proof.Proof.Gen.ReferenceIdeal.Frame
import proofs.«113411_g2000101289639093_pallasbulk_264_17_alg».proof.Proof.Gen.Pre_finite_inputs
import proofs.«113411_g2000101289639093_pallasbulk_264_17_alg».proof.Proof.KernelPool
import proofs.«113411_g2000101289639093_pallasbulk_264_17_alg».proof.Proof.RefRun
import Idealize.ShloMosaic.Adequacy
import Idealize.ShloMosaic.Init

noncomputable section

namespace Cert.Proof

open Idealize.ShloMosaic Idealize.SL.Sem

/-- Each program runs to the end without a fault and leaves its argument array as it was. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealized kernel is the kernel's own text read over the extended reals: no operation was rewritten. -/
theorem preserves : Cert.preserves_Kernel_KernelIdeal := trivial

/-- From arguments that agree, both idealized programs end with the pooled mean of the argument in their result. -/
theorem algebraic : Cert.algebraic_KernelIdeal_ReferenceIdeal := by
  intro m ρ m' ρ' _ hagree
  refine ⟨_, Cert.KernelIdeal.Pool.run m ρ, ?_⟩
  refine (θ_run Cert.ReferenceIdeal.defs _ _).mono (fun _ h c => ⟨(h c).1.trans ?_, (h c).2⟩)
    (Cert.ReferenceIdeal.Pool.run m' ρ')
  rw [hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
